-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) (main_arg1 : FVec F S8x2048x2048 .f32) (main_arg2 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8x2048x2048 : Shape := ⟨3, ![8, 2048, 2048]⟩
abbrev S1x256x2048 : Shape := ⟨3, ![1, 256, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S8x2048x2048, .f32⟩
  | .hbm, ⟨5, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x2048x2048.size a
  hwx0_2 : ∀ i : grid0.Coords, EltTy.bits .f32 = 32 ∨ (Rect.block (s := S8x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_3 : Pipeline.Aliased win0 0 3
  halias0_4 : Pipeline.Aliased win0 1 4
  halias0_5 : Pipeline.Aliased win0 2 5

variable [Facts]
-- ==== ReferenceIdeal.lean ====
abbrev S8x2048x2048 : Shape := ⟨3, ![8, 2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S_, .f32⟩
  | .hbm, ⟨4, _⟩ => ⟨S8x2048x2048, .f32⟩
  | .hbm, ⟨5, _⟩ => ⟨S8x2048x2048, .i1⟩
  | .hbm, ⟨6, _⟩ => ⟨S_, .f32⟩
  | .hbm, ⟨7, _⟩ => ⟨S8x2048x2048, .f32⟩
  | .hbm, ⟨8, _⟩ => ⟨S8x2048x2048, .i1⟩
  | .hbm, ⟨9, _⟩ => ⟨S8x2048x2048, .i1⟩
  | .hbm, ⟨10, _⟩ => ⟨S_, .f32⟩
  | .hbm, ⟨11, _⟩ => ⟨S8x2048x2048, .f32⟩
  | .hbm, ⟨12, _⟩ => ⟨S8x2048x2048, .i1⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .i1⟩
  | .hbm, ⟨26, _⟩ => ⟨S_, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call6_cst : Ref sig .tc := ⟨.hbm, 39, rfl⟩
abbrev main_call6_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)

variable [Facts₀]

class Facts : Prop extends Facts₀ where

variable [Facts]
-- ==== Proof.Relax.lean ====
/-
  The ReLU relaxation of an interval, one entry at a time, on the extended reals.

  For an entry with lower bound `l` and upper bound `h` the relaxed bounds are
    * crossing (`l < 0 < h`): lower bound `λ · l` with `λ = 0` if `l² > h²` and `λ = 1` otherwise; upper bound the
      chord of the ReLU through `(l, 0)` and `(h, h)` evaluated at `h`, `(h / (h - l)) · h + (-(l · h)) / (h - l)`;
    * `h ≤ 0`: both bounds `0`;
    * otherwise the bounds themselves.
  The chord at `h` is `h` itself: `h² / (h - l) - l·h / (h - l) = h · (h - l) / (h - l) = h`, the denominator
  being positive in the crossing case. So the upper bound is `h` when `0 < h` and `0` when `h ≤ 0`, that is
  the ReLU of `h`, whatever `l` is. The cancellation needs FINITE bounds: at `h = +∞` the quotient `h / (h - l)`
  is `0` on the extended reals and the chord is `0`, not `+∞`.
-/
import Idealize.ShloMosaic.PureOps.Ideal
import Idealize.ShloMosaic.PureOps.Ideal.Laws
import Idealize.ShloMosaic.Lib.Affine

noncomputable section

namespace Cert.Relax

open Idealize.ShloMosaic

/-- The float literal `0.0`, as both programs spell it. -/
abbrev zeroLit : EReal := Ideal.ofBits .f32 0x00000000#32
/-- The float literal `1.0`, as both programs spell it (never evaluated: both sides use the same word). -/
abbrev oneLit : EReal := Ideal.ofBits .f32 0x3F800000#32

theorem zeroLit_eq : zeroLit = 0 := Ideal.ofBits_zero_f32

/-- The entry's interval crosses zero: `l < 0` and `0 < h`, as a one-bit word. -/
def crossing (l h : EReal) : BitVec 1 := IntOp.andi (Ideal.cmp .olt l zeroLit) (Ideal.cmp .ogt h zeroLit)
/-- The entry's interval lies left of zero: `h ≤ 0`. -/
def nonpos (h : EReal) : BitVec 1 := Ideal.cmp .ole h zeroLit
/-- The slope of the lower relaxation in the crossing case: `0` if `l² > h²`, else `1`. -/
def slope (l h : EReal) : EReal := Scalar.select (Ideal.cmp .ogt (l * l) (h * h)) zeroLit oneLit

/-- The relaxed point: the ReLU of `x`. -/
def pointOut (x : EReal) : EReal := max x zeroLit
/-- The relaxed lower bound. -/
def lowOut (l h : EReal) : EReal :=
  Scalar.select (crossing l h) (slope l h * l) (Scalar.select (nonpos h) zeroLit l)
/-- The relaxed upper bound in closed form: the ReLU of `h`. -/
def highOut (h : EReal) : EReal := Scalar.select (nonpos h) zeroLit h

/-- The chord's denominator, made safe outside the crossing case. -/
def denom (l h : EReal) : EReal := Scalar.select (crossing l h) (h - l) oneLit
/-- The chord of the ReLU through `(l, 0)` and `(h, h)`, evaluated at `h`: slope times `h` plus intercept. -/
def chordAtHigh (l h : EReal) : EReal := Ideal.div h (denom l h) * h + Ideal.div (-(l * h)) (denom l h)
/-- The relaxed upper bound as the divide chain computes it. -/
def highByChord (l h : EReal) : EReal :=
  Scalar.select (crossing l h) (chordAtHigh l h) (Scalar.select (nonpos h) zeroLit h)

/-- A one-bit word made from a decision is set exactly when the decision holds. -/
theorem ofBool_decide_eq_one {p : Prop} [Decidable p] : BitVec.ofBool (decide p) = 1#1 ↔ p := by
  by_cases hp : p <;> simp [hp]

theorem select_of_eq_one {α : Type} {c : BitVec 1} (h : c = 1#1) (a b : α) : Scalar.select c a b = a := by
  subst h; rfl
theorem select_of_ne_one {α : Type} {c : BitVec 1} (h : c ≠ 1#1) (a b : α) : Scalar.select c a b = b :=
  if_neg h

theorem crossing_eq_one {l h : EReal} (hc : crossing l h = 1#1) : l < 0 ∧ 0 < h := by
  unfold crossing at hc
  obtain ⟨h1, h2⟩ := IntOp.andi_eq_one.1 hc
  rw [zeroLit_eq] at h1 h2
  exact ⟨ofBool_decide_eq_one.1 h1, ofBool_decide_eq_one.1 h2⟩

/-- On finite bounds the chord at `h` is `h`, so the divide chain computes the ReLU of `h`. -/
theorem highByChord_eq (l h : ℝ) : highByChord (l : EReal) (h : EReal) = highOut (h : EReal) := by
  unfold highByChord highOut
  by_cases hc : crossing (l : EReal) (h : EReal) = 1#1
  · obtain ⟨hl, hh⟩ := crossing_eq_one hc
    have hl' : l < 0 := by exact_mod_cast hl
    have hh' : 0 < h := by exact_mod_cast hh
    have hne : h - l ≠ 0 := by linarith
    have hnp : nonpos (h : EReal) ≠ 1#1 := by
      unfold nonpos; rw [zeroLit_eq]
      intro hle
      exact absurd (ofBool_decide_eq_one.1 hle) (not_le.2 hh)
    rw [select_of_eq_one hc, select_of_ne_one hnp]
    unfold chordAtHigh denom
    rw [select_of_eq_one hc, ← EReal.coe_sub, Ideal.div_coe hne, Ideal.div_coe hne,
      ← EReal.coe_mul, ← EReal.coe_mul, ← EReal.coe_mul, ← EReal.coe_neg, ← EReal.coe_mul, ← EReal.coe_add]
    congr 1
    field_simp
    ring
  · rw [select_of_ne_one hc]

/-! ### The same, entry by entry over an array -/

variable {ι : Type}

def pointArr (x : ι → EReal) : ι → EReal := fun i => pointOut (x i)
def lowArr (l h : ι → EReal) : ι → EReal := fun i => lowOut (l i) (h i)
def highArr (h : ι → EReal) : ι → EReal := fun i => highOut (h i)
def highByChordArr (l h : ι → EReal) : ι → EReal := fun i => highByChord (l i) (h i)

/-- Where every bound is a real number the divide chain's array is the closed form's. -/
theorem highByChordArr_eq (l h : ι → EReal) (hl : ∀ i, ∃ r : ℝ, l i = r) (hh : ∀ i, ∃ r : ℝ, h i = r) :
    highByChordArr l h = highArr h := by
  funext i
  obtain ⟨a, ha⟩ := hl i
  obtain ⟨b, hb⟩ := hh i
  show highByChord (l i) (h i) = highOut (h i)
  rw [ha, hb]
  exact highByChord_eq a b

end Cert.Relax

end
-- ==== Proof.RefValue.lean ====
/-
  What the reference computes, entry by entry.

  Its three results are compositions of entrywise operations of the three argument arrays (the point `x`, the lower
  bounds `l`, the upper bounds `h`) and of two broadcast literals, so each result at an index is a scalar function of the
  arguments at that index: the ReLU of `x`; the relaxed lower bound of `(l, h)`; and the relaxed upper bound of
  `(l, h)` as the divide chain of the ReLU's chord computes it.
-/
import proofs.«151013_j79422535238274_2_alg».proof.Proof.Gen.ReferenceIdeal.Read
import proofs.«151013_j79422535238274_2_alg».proof.Proof.Relax

noncomputable section

namespace Cert.ReferenceIdeal.RefValue

open Cert.ReferenceIdeal Cert.ReferenceIdeal.Gen Idealize.ShloMosaic Cert.Relax

/-- The first result is the ReLU of the point, entry by entry. -/
theorem point_eq (x : (⟨S8x2048x2048, .f32⟩ : BufTy).Contents (Elt Ideal)) :
    Read.val_main_v27 (F := Ideal) x = pointArr x := by
  funext i; rfl

/-- The second result is the relaxed lower bound, entry by entry. -/
theorem low_eq (l h : (⟨S8x2048x2048, .f32⟩ : BufTy).Contents (Elt Ideal)) :
    Read.val_main_v26 (F := Ideal) l h = lowArr l h := by
  funext i; rfl

/-- The third result is the relaxed upper bound by the chord's divide chain, entry by entry. -/
theorem high_eq (l h : (⟨S8x2048x2048, .f32⟩ : BufTy).Contents (Elt Ideal)) :
    Read.val_main_v24 (F := Ideal) l h = highByChordArr l h := by
  funext i; rfl

end Cert.ReferenceIdeal.RefValue

end
-- ==== Proof.BlockValue.lean ====
/-
  What the kernel body leaves in its three output blocks, entry by entry.

  The body loads the point block, the lower-bound block and the upper-bound block whole, computes with entrywise
  operations only (the reshapes between [1, 256, 2048] and [256, 2048] move no entry), and stores three blocks whole.
  So every stored entry is a scalar function of the loaded entries at the same position: the ReLU of the point; the
  relaxed lower bound of the two bounds; the ReLU of the upper bound (the kernel's closed form of the relaxed upper bound).
-/
import proofs.«151013_j79422535238274_2_alg».proof.Proof.Gen.KernelIdeal.Value
import proofs.«151013_j79422535238274_2_alg».proof.Proof.Relax

noncomputable section

namespace Cert.KernelIdeal.BlockValue

open Cert.KernelIdeal Cert.KernelIdeal.Gen Idealize.ShloMosaic Cert.Relax

/-- Reading a [1, 256, 2048] block at (0, r, q) of the position (b, r, q) is reading it at the position itself:
    the leading axis has one coordinate. -/
theorem sameEntry (y : S1x256x2048.Idx) : Value.ix3_0 y = y := by
  have hy0 : (y 0).val < 1 := (y 0).isLt
  funext a; apply Fin.ext
  match a with
  | ⟨0, _⟩ => show 0 = (y 0).val; omega
  | ⟨1, _⟩ => rfl
  | ⟨2, _⟩ => rfl

/-- The first stored block: the ReLU of the point block. -/
theorem pointBlock (P : Vec Ideal S1x256x2048 .f32) (y : S1x256x2048.Idx) :
    Value.E3 P y = pointOut (P y) := by
  have e0 : Value.ix3_0 y = y := sameEntry y
  show max (P (Value.ix3_0 y)) ((k0_pay2 (F := Ideal)) (Value.ix3_1 y)) = pointOut (P y)
  rw [e0]; rfl

/-- The second stored block: the relaxed lower bound of the lower- and upper-bound blocks. -/
theorem lowBlock (L H : Vec Ideal S1x256x2048 .f32) (y : S1x256x2048.Idx) :
    Value.E4 L H y = lowOut (L y) (H y) := by
  have e0 : Value.ix4_0 y = y := sameEntry y
  have e1 : Value.ix4_1 y = y := sameEntry y
  have e2 : Value.ix4_2 y = y := sameEntry y
  have e3 : Value.ix4_3 y = y := sameEntry y
  have e4 : Value.ix4_4 y = y := sameEntry y
  have e5 : Value.ix4_5 y = y := sameEntry y
  have e7 : Value.ix4_7 y = y := sameEntry y
  have e8 : Value.ix4_8 y = y := sameEntry y
  have e10 : Value.ix4_10 y = y := sameEntry y
  dsimp only [Value.E4]
  rw [e0, e1, e2, e3, e4, e5, e7, e8, e10]; rfl

/-- The third stored block: the ReLU of the upper-bound block. -/
theorem highBlock (H : Vec Ideal S1x256x2048 .f32) (y : S1x256x2048.Idx) :
    Value.E5 H y = highOut (H y) := by
  have e0 : Value.ix5_0 y = y := sameEntry y
  have e2 : Value.ix5_2 y = y := sameEntry y
  dsimp only [Value.E5]
  rw [e0, e2]; rfl

end Cert.KernelIdeal.BlockValue

end
-- ==== Proof.ArrayValue.lean ====
/-
  From blocks to arrays: what the three result arrays hold after the kernel's run.

  The grid has 8 × 8 points; point (a, b) stages, for each of the three arguments and each of the three results, the
  block of 256 rows `[a, 256·b … 256·b + 255, 0 … 2047]`. All six windows move together (same index map), so the block a
  point writes back into a result array is the entrywise function of the blocks it read from the argument arrays AT THE
  SAME ARRAY POSITIONS; the 64 blocks tile each array, so each result array ends as that entrywise function of the whole
  argument arrays: the ReLU of the points, the relaxed lower bounds, the ReLU of the upper bounds.
-/
import proofs.«151013_j79422535238274_2_alg».proof.Proof.BlockValue
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem Cert.Relax
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- All six windows have the same block index at every grid point (decided over the 64 points): each argument's
    window against the result window that is computed from it. -/
theorem sameIndex : ∀ t : Fin cfg0.N, win0_0.index t = win0_3.index t ∧ win0_1.index t = win0_4.index t
    ∧ win0_2.index t = win0_4.index t ∧ win0_2.index t = win0_5.index t :=
  (by decide +kernel : ∀ t : Fin grid0.N, win0_0.index t = win0_3.index t ∧ win0_1.index t = win0_4.index t
    ∧ win0_2.index t = win0_4.index t ∧ win0_2.index t = win0_5.index t)

/-- Every block position (a, b, 0) of the 8 × 8 × 1 tiling is some grid point's, for each result window. -/
theorem everyBlock3 : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])
theorem everyBlock4 : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])
theorem everyBlock5 : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-! ## The array position under a block position: the same for an argument's window and its result's -/

theorem pos03 (t : Fin cfg0.N) (j : S1x256x2048.Idx) :
    ((cfg0.win 0).blk t).view.emb j = ((cfg0.win 3).blk t).view.emb j := by
  have e := (sameIndex t).1
  funext a; apply Fin.ext
  match a with
  | ⟨0, _⟩ => show win0_0.index t (0 : Fin 3) * 1 + 1 * (j 0).val = win0_3.index t (0 : Fin 3) * 1 + 1 * (j 0).val; rw [e]
  | ⟨1, _⟩ => show win0_0.index t (1 : Fin 3) * 256 + 1 * (j 1).val = win0_3.index t (1 : Fin 3) * 256 + 1 * (j 1).val; rw [e]
  | ⟨2, _⟩ => show win0_0.index t (2 : Fin 3) * 2048 + 1 * (j 2).val = win0_3.index t (2 : Fin 3) * 2048 + 1 * (j 2).val; rw [e]

theorem pos14 (t : Fin cfg0.N) (j : S1x256x2048.Idx) :
    ((cfg0.win 1).blk t).view.emb j = ((cfg0.win 4).blk t).view.emb j := by
  have e := (sameIndex t).2.1
  funext a; apply Fin.ext
  match a with
  | ⟨0, _⟩ => show win0_1.index t (0 : Fin 3) * 1 + 1 * (j 0).val = win0_4.index t (0 : Fin 3) * 1 + 1 * (j 0).val; rw [e]
  | ⟨1, _⟩ => show win0_1.index t (1 : Fin 3) * 256 + 1 * (j 1).val = win0_4.index t (1 : Fin 3) * 256 + 1 * (j 1).val; rw [e]
  | ⟨2, _⟩ => show win0_1.index t (2 : Fin 3) * 2048 + 1 * (j 2).val = win0_4.index t (2 : Fin 3) * 2048 + 1 * (j 2).val; rw [e]

theorem pos24 (t : Fin cfg0.N) (j : S1x256x2048.Idx) :
    ((cfg0.win 2).blk t).view.emb j = ((cfg0.win 4).blk t).view.emb j := by
  have e := (sameIndex t).2.2.1
  funext a; apply Fin.ext
  match a with
  | ⟨0, _⟩ => show win0_2.index t (0 : Fin 3) * 1 + 1 * (j 0).val = win0_4.index t (0 : Fin 3) * 1 + 1 * (j 0).val; rw [e]
  | ⟨1, _⟩ => show win0_2.index t (1 : Fin 3) * 256 + 1 * (j 1).val = win0_4.index t (1 : Fin 3) * 256 + 1 * (j 1).val; rw [e]
  | ⟨2, _⟩ => show win0_2.index t (2 : Fin 3) * 2048 + 1 * (j 2).val = win0_4.index t (2 : Fin 3) * 2048 + 1 * (j 2).val; rw [e]

theorem pos25 (t : Fin cfg0.N) (j : S1x256x2048.Idx) :
    ((cfg0.win 2).blk t).view.emb j = ((cfg0.win 5).blk t).view.emb j := by
  have e := (sameIndex t).2.2.2
  funext a; apply Fin.ext
  match a with
  | ⟨0, _⟩ => show win0_2.index t (0 : Fin 3) * 1 + 1 * (j 0).val = win0_5.index t (0 : Fin 3) * 1 + 1 * (j 0).val; rw [e]
  | ⟨1, _⟩ => show win0_2.index t (1 : Fin 3) * 256 + 1 * (j 1).val = win0_5.index t (1 : Fin 3) * 256 + 1 * (j 1).val; rw [e]
  | ⟨2, _⟩ => show win0_2.index t (2 : Fin 3) * 2048 + 1 * (j 2).val = win0_5.index t (2 : Fin 3) * 2048 + 1 * (j 2).val; rw [e]

/-! ## What a point writes back is its block of the entrywise function of the argument arrays -/

theorem flushedPoint (c : Dev nD) (t : Fin cfg0.N) :
    (dats m 0 c).flushed 3 t = ((cfg0.win 3).blk t).view.read (Elt Ideal)
      (pointArr (ι := S8x2048x2048.Idx) (V m c main_arg0)) := by
  rw [Value.flushed3]
  unfold out0_3
  simp only [View.ld_unit_zero (S := S1x256x2048) zeroOffsets]
  funext j
  show (View.canon [⟨r0_0, k0_pay4 (iblk m c 0 t)⟩] : Vec Ideal S1x256x2048 .f32) j = pointOut (V m c main_arg0 (((cfg0.win 3).blk t).view.emb j))
  refine (Value.canon3_eq (F := Ideal) (iblk m c 0 t) j).trans ?_
  refine (BlockValue.pointBlock (iblk m c 0 t) j).trans ?_
  show pointOut (V m c main_arg0 (((cfg0.win 0).blk t).view.emb j)) = _
  rw [pos03 t j]

theorem flushedLow (c : Dev nD) (t : Fin cfg0.N) :
    (dats m 0 c).flushed 4 t = ((cfg0.win 4).blk t).view.read (Elt Ideal)
      (lowArr (ι := S8x2048x2048.Idx) (V m c main_arg1) (V m c main_arg2)) := by
  rw [Value.flushed4]
  unfold out0_4
  simp only [View.ld_unit_zero (S := S1x256x2048) zeroOffsets]
  funext j
  show (View.canon [⟨r0_0, k0_pay5 (iblk m c 1 t) (iblk m c 2 t)⟩] : Vec Ideal S1x256x2048 .f32) j
    = lowOut (V m c main_arg1 (((cfg0.win 4).blk t).view.emb j)) (V m c main_arg2 (((cfg0.win 4).blk t).view.emb j))
  refine (Value.canon4_eq (F := Ideal) (iblk m c 1 t) (iblk m c 2 t) j).trans ?_
  refine (BlockValue.lowBlock (iblk m c 1 t) (iblk m c 2 t) j).trans ?_
  show lowOut (V m c main_arg1 (((cfg0.win 1).blk t).view.emb j)) (V m c main_arg2 (((cfg0.win 2).blk t).view.emb j)) = _
  rw [pos14 t j, pos24 t j]

theorem flushedHigh (c : Dev nD) (t : Fin cfg0.N) :
    (dats m 0 c).flushed 5 t = ((cfg0.win 5).blk t).view.read (Elt Ideal)
      (highArr (ι := S8x2048x2048.Idx) (V m c main_arg2)) := by
  rw [Value.flushed5]
  unfold out0_5
  simp only [View.ld_unit_zero (S := S1x256x2048) zeroOffsets]
  funext j
  show (View.canon [⟨r0_0, k0_pay6 (iblk m c 2 t)⟩] : Vec Ideal S1x256x2048 .f32) j = highOut (V m c main_arg2 (((cfg0.win 5).blk t).view.emb j))
  refine (Value.canon5_eq (F := Ideal) (iblk m c 2 t) j).trans ?_
  refine (BlockValue.highBlock (iblk m c 2 t) j).trans ?_
  show highOut (V m c main_arg2 (((cfg0.win 2).blk t).view.emb j)) = _
  rw [pos25 t j]

/-! ## The blocks tile each result array -/

/-- An array position is in point `t`'s block iff each coordinate is in the block's range on its axis. -/
theorem mem_blk3 (t : Fin cfg0.N) (i : S8x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v0_0).slice (win0_3.rect t)).set ↔ _
  rw [View.set_slice_whole, Rect.mem_set_unit]
  exact Iff.rfl
theorem mem_blk4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0_1).slice (win0_4.rect t)).set ↔ _
  rw [View.set_slice_whole, Rect.mem_set_unit]
  exact Iff.rfl
theorem mem_blk5 (t : Fin cfg0.N) (i : S8x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_2).slice (win0_5.rect t)).set ↔ _
  rw [View.set_slice_whole, Rect.mem_set_unit]
  exact Iff.rfl

/-- Position (a, r, q) lies in the block of the point with block index (a, r / 256, 0). -/
theorem covered3 (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := everyBlock3 ⟨(i 0).val, by omega⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

theorem covered4 (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := everyBlock4 ⟨(i 0).val, by omega⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

theorem covered5 (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := everyBlock5 ⟨(i 0).val, by omega⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-! ## The result arrays after the run -/

theorem finalPoint (c : Dev nD) :
    (dats m 0 c).arrAt 3 cfg0.N = pointArr (ι := S8x2048x2048.Idx) (m ((c : Thread nD τ).loc main_arg0)) := by
  rw [← V_main_arg0 m c]
  exact (dats m 0 c).arrAt_eq_of_cover 3 _ (fun t _ => flushedPoint m c t) covered3

theorem finalLow (c : Dev nD) :
    (dats m 0 c).arrAt 4 cfg0.N = lowArr (ι := S8x2048x2048.Idx) (m ((c : Thread nD τ).loc main_arg1))
      (m ((c : Thread nD τ).loc main_arg2)) := by
  rw [← V_main_arg1 m c, ← V_main_arg2 m c]
  exact (dats m 0 c).arrAt_eq_of_cover 4 _ (fun t _ => flushedLow m c t) covered4

theorem finalHigh (c : Dev nD) :
    (dats m 0 c).arrAt 5 cfg0.N = highArr (ι := S8x2048x2048.Idx) (m ((c : Thread nD τ).loc main_arg2)) := by
  rw [← V_main_arg2 m c]
  exact (dats m 0 c).arrAt_eq_of_cover 5 _ (fun t _ => flushedHigh m c t) covered5

/-- The kernel's run: every weakly fair execution terminates with the three result arrays at the entrywise
    relaxation of the argument arrays, the arguments unchanged. -/
theorem run : θ_run defs (onTc (τ := τ) (main (F := Ideal))) ⟨m, fun _ => 0, ρ⟩ fun r => ∀ c : Dev nD,
      r.2.mem ((c : Thread nD τ).loc main_v0_0) = pointArr (ι := S8x2048x2048.Idx) (m ((c : Thread nD τ).loc main_arg0))
      ∧ r.2.mem ((c : Thread nD τ).loc main_v0_1) = lowArr (ι := S8x2048x2048.Idx) (m ((c : Thread nD τ).loc main_arg1))
          (m ((c : Thread nD τ).loc main_arg2))
      ∧ r.2.mem ((c : Thread nD τ).loc main_v0_2) = highArr (ι := S8x2048x2048.Idx) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalPoint m c), (h c).2.1.trans (finalLow m c),
      (h c).2.2.1.trans (finalHigh m c), (h c).2.2.2⟩)
    (Value.run_blocks m ρ)

end Cert.KernelIdeal.ArrayValue

end
-- ==== Proof.FiniteInputs.lean ====
/-
  The precondition, read back: every entry of every argument array is a real number.

  The precondition is the conjunction, over the three arguments, of "all entries have absolute value below +∞". On the
  extended reals `|x| = max x (-x)` is `+∞` exactly at the two infinities, so `|x| < +∞` says that `x` is a real.
-/
import proofs.«151013_j79422535238274_2_alg».proof.Pre_finite_inputs
import proofs.«151013_j79422535238274_2_alg».proof.Proof.Gen.Pre_finite_inputs
import proofs.«151013_j79422535238274_2_alg».proof.Proof.Relax
import Idealize.ShloMosaic.Lib.ReduceAll

noncomputable section

namespace Cert.FiniteInputs

open Idealize.ShloMosaic Cert.Pre_finite_inputs Cert.Pre_finite_inputs.Gen

instance : Subsingleton S_.Idx := ⟨fun a b => funext fun d => d.elim0⟩

/-- The literal the absolute values are compared with is `+∞`. -/
theorem infLit_eq : Ideal.ofBits .f32 0x7F800000#32 = (⊤ : EReal) := by simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = r := by
  rw [infLit_eq] at h
  have hlt : max x (-x) < ⊤ := Cert.Relax.ofBool_decide_eq_one.1 h
  induction x using EReal.rec with
  | bot => simp at hlt
  | coe r => exact ⟨r, rfl⟩
  | top => simp at hlt

/-- "All entries of `a` have absolute value below `+∞`" gives a real at every index. -/
theorem real_of_all (a : FVec Ideal S8x2048x2048 .f32) (j : S_.Idx)
    (e : Host.reduce IntOp.andi (cmpf .olt (Host.absf a)
      (broadcastInDim S8x2048x2048 ![] Facts.bcast_S_S8x2048x2048 (constant S_ .f32 0x7F800000#32))) (constantI S_ 1 1#1)
      Facts.reducesTo_S8x2048x2048_S_d0_1_2 Facts.h_S_ j = 1#1) (i : S8x2048x2048.Idx) : ∃ r : ℝ, a i = r :=
  real_of_abs_lt (a i) (Host.reduce_andi_all _ _ _ _ j e i)

/-- The precondition holding of three arrays makes every entry of each a real number. -/
theorem reals_of_pre (a0 a1 a2 : FVec Ideal S8x2048x2048 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h (fun d => d.elim0)
  dsimp only [fn] at h0
  obtain ⟨h01, h2⟩ := IntOp.andi_eq_one.1 h0
  obtain ⟨h0', h1⟩ := IntOp.andi_eq_one.1 h01
  exact ⟨real_of_all a0 _ h0', real_of_all a1 _ h1, real_of_all a2 _ h2⟩

end Cert.FiniteInputs

end
-- ==== Proof.lean ====
/-
  The ReLU relaxation of an interval domain, as a pipelined entrywise kernel, against its jnp reference.

  Arguments: the points `x`, the lower bounds `l` and the upper bounds `h`, each f32[8, 2048, 2048]. Results, entry by entry:
    * the ReLU of `x`;
    * the relaxed lower bound: `λ · l` if `l < 0 < h` (`λ = 0` if `l² > h²`, else `1`), `0` if `h ≤ 0`, else `l`;
    * the relaxed upper bound: the reference evaluates the chord of the ReLU through `(l, 0)` and `(h, h)` at `h` by a
      divide chain, `(h / (h - l)) · h + (-(l · h)) / (h - l)`, if `l < 0 < h`, `0` if `h ≤ 0`, else `h`; the kernel
      stores the ReLU of `h`.
  The first two results are the same expression on both sides. For the third, the chord at `h` is `h` itself
  (`h² / (h - l) - l·h / (h - l) = h`, the denominator positive when `l < 0 < h`), a cancellation that holds for real
  bounds and fails at an infinite one: this is where the precondition (all inputs finite) is used.

  Modules: `Relax` (the scalar functions and the cancellation), `RefValue` (the reference's results, entry by entry),
  `BlockValue` (what the kernel body leaves in a block, entry by entry), `ArrayValue` (the 8 × 8 blocks tile each result
  array; the kernel's run), `FiniteInputs` (the precondition gives a real at every index).
-/
import proofs.«151013_j79422535238274_2_alg».proof.Defs
import proofs.«151013_j79422535238274_2_alg».proof.Proof.Gen.Kernel
import proofs.«151013_j79422535238274_2_alg».proof.Proof.Gen.Kernel.Skeleton
import proofs.«151013_j79422535238274_2_alg».proof.Proof.Gen.Kernel.Launch
import proofs.«151013_j79422535238274_2_alg».proof.Proof.Gen.Kernel.Points
import proofs.«151013_j79422535238274_2_alg».proof.Proof.Gen.Kernel.Frame
import proofs.«151013_j79422535238274_2_alg».proof.Proof.Gen.KernelIdeal
import proofs.«151013_j79422535238274_2_alg».proof.Proof.Gen.KernelIdeal.Skeleton
import proofs.«151013_j79422535238274_2_alg».proof.Proof.Gen.KernelIdeal.Launch
import proofs.«151013_j79422535238274_2_alg».proof.Proof.Gen.KernelIdeal.Points
import proofs.«151013_j79422535238274_2_alg».proof.Proof.Gen.KernelIdeal.Frame
import proofs.«151013_j79422535238274_2_alg».proof.Proof.Gen.ReferenceIdeal
import proofs.«151013_j79422535238274_2_alg».proof.Proof.Gen.Pre_finite_inputs
import proofs.«151013_j79422535238274_2_alg».proof.Proof.Gen.KernelIdeal.Value
import proofs.«151013_j79422535238274_2_alg».proof.Proof.Gen.ReferenceIdeal.Run
import proofs.«151013_j79422535238274_2_alg».proof.Proof.Gen.ReferenceIdeal.Read
import proofs.«151013_j79422535238274_2_alg».proof.Proof.Relax
import proofs.«151013_j79422535238274_2_alg».proof.Proof.RefValue
import proofs.«151013_j79422535238274_2_alg».proof.Proof.BlockValue
import proofs.«151013_j79422535238274_2_alg».proof.Proof.ArrayValue
import proofs.«151013_j79422535238274_2_alg».proof.Proof.FiniteInputs
import Idealize.ShloMosaic.Adequacy
import Idealize.ShloMosaic.Init

noncomputable section

namespace Cert.Proof

open Idealize.ShloMosaic Idealize.SL.Sem Cert.Relax

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on finite arguments both programs end with the same three arrays: the ReLU of the
    points, the relaxed lower bounds, and the ReLU of the upper bounds — which, the bounds being real numbers, is what
    the reference's chord evaluation gives. -/
theorem algebraic : Cert.algebraic_KernelIdeal_ReferenceIdeal := by
  intro m ρ m' ρ' hpre hagree
  refine ⟨_, _, _, Cert.KernelIdeal.ArrayValue.run m ρ, ?_⟩
  refine (θ_run Cert.ReferenceIdeal.defs _ _).mono (fun _ h c =>
    ⟨(h c).1.trans ?_, (h c).2.1.trans ?_, (h c).2.2.1.trans ?_, (h c).2.2.2⟩)
    (Cert.ReferenceIdeal.Value.run (F := Ideal) m' ρ')
  · rw [(hagree c).1, Cert.ReferenceIdeal.Read.val_main_v27_eq, Cert.ReferenceIdeal.RefValue.point_eq]
  · rw [(hagree c).2.1, (hagree c).2.2, Cert.ReferenceIdeal.Read.val_main_v26_eq, Cert.ReferenceIdeal.RefValue.low_eq]
  · rw [(hagree c).2.1, (hagree c).2.2, Cert.ReferenceIdeal.Read.val_main_v24_eq, Cert.ReferenceIdeal.RefValue.high_eq]
    obtain ⟨-, hl, hh⟩ := Cert.FiniteInputs.reals_of_pre _ _ _ (hpre c)
    exact highByChordArr_eq _ _ hl hh

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
